-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x4096 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S8 .f32) (main_arg2 : FVec F S4096x8 .f32) (main_arg3 : FVec F S4096 .f32) (main_arg4 : FVec F S1024x4096 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8x4096x1024 : Shape := ⟨3, ![8, 4096, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S8x4096x8 : Shape := ⟨3, ![8, 4096, 8]⟩
abbrev S32768x8 : Shape := ⟨2, ![32768, 8]⟩
abbrev S1x8 : Shape := ⟨2, ![1, 8]⟩
abbrev S1x4096 : Shape := ⟨2, ![1, 4096]⟩
abbrev S1x1024 : Shape := ⟨2, ![1, 1024]⟩
abbrev S32768x1024 : Shape := ⟨2, ![32768, 1024]⟩
abbrev S1024x8 : Shape := ⟨2, ![1024, 8]⟩
abbrev S1024x1024 : Shape := ⟨2, ![1024, 1024]⟩

abbrev nBuf : Space → Nat
  | .hbm => 16
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S8x4096x8, .f32⟩
  | .hbm, ⟨7, _⟩ => ⟨S32768x8, .f32⟩
  | .hbm, ⟨8, _⟩ => ⟨S8, .f32⟩
  | .hbm, ⟨9, _⟩ => ⟨S1x8, .f32⟩
  | .hbm, ⟨10, _⟩ => ⟨S4096x8, .bf16⟩
  | .hbm, ⟨11, _⟩ => ⟨S1024x4096, .bf16⟩
  | .hbm, ⟨12, _⟩ => ⟨S1x4096, .f32⟩
  | .hbm, ⟨13, _⟩ => ⟨S1x1024, .f32⟩
  | .hbm, ⟨14, _⟩ => ⟨S32768x1024, .f32⟩
  | .hbm, ⟨15, _⟩ => ⟨S8x4096x1024, .f32⟩
  | .local _ .vmem, ⟨0, _⟩ => ⟨S1024x8, .f32⟩
  | .local _ .vmem, ⟨1, _⟩ => ⟨S1024x8, .f32⟩
  | .local _ .vmem, ⟨2, _⟩ => ⟨S1x8, .f32⟩
  | .local _ .vmem, ⟨3, _⟩ => ⟨S4096x8, .bf16⟩
  | .local _ .vmem, ⟨4, _⟩ => ⟨S1x4096, .f32⟩
  | .local _ .vmem, ⟨5, _⟩ => ⟨S1024x4096, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v12 : BitVec 32 := Scalar.addi c0_i32 c4_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c1024_i32 : BitVec 32 := 1024#32
  let v19 : BitVec 32 := Scalar.muli arg9 c1024_i32
  v19
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c1024_i32 : BitVec 32 := 1024#32
  let v19 : BitVec 32 := Scalar.muli arg9 c1024_i32
  let v20 : BitVec 32 := v19
  let v21 : Index := Scalar.indexCast v20
  let c0_12 : Index := 0#32
  ![v21.toNat, 0]
def k0_off2 (k0_t1 : Fin k0_t1_loop.trips) : Fin 2 → Nat :=
  let c0_13 : Index := 0#32
  let c0_i32 : BitVec 32 := 0#32
  let c1_i32 : BitVec 32 := 1#32
  let arg9 : BitVec 32 := Scf.iv c0_i32 c1_i32 k0_t1
  let c1024_i32 : BitVec 32 := 1024#32
  let v19 : BitVec 32 := Scalar.muli arg9 c1024_i32
  let v20 : BitVec 32 := v19
  let v24 : Index := Scalar.indexCast v20
  ![0, v24.toNat]
def k0_off3 (k0_t1 : Fin k0_t1_loop.trips) : Fin 2 → Nat :=
  let c0_16 : Index := 0#32
  let c0_i32 : BitVec 32 := 0#32
  let c1_i32 : BitVec 32 := 1#32
  let arg9 : BitVec 32 := Scf.iv c0_i32 c1_i32 k0_t1
  let c1024_i32 : BitVec 32 := 1024#32
  let v19 : BitVec 32 := Scalar.muli arg9 c1024_i32
  let v20 : BitVec 32 := v19
  let v33 : Index := Scalar.indexCast v20
  ![0, v33.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S8x4096x1024_S8x4096x8_0_0_0 : S8x4096x1024.Slices ![0, 0, 0] S8x4096x8
  shapeCasts_S8x4096x8_S32768x8 : S8x4096x8.ShapeCasts S32768x8
  shapeCasts_S8_S1x8 : S8.ShapeCasts S1x8
  bitsLt_bf16_f32 : FTy.bits .bf16 < FTy.bits .f32
  shapeCasts_S4096_S1x4096 : S4096.ShapeCasts S1x4096
  shapeCasts_S1024_S1x1024 : S1024.ShapeCasts S1x1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S1x1024 : 0 < S1x1024.numel
  shapeCasts_S1x1024_S1x1024 : S1x1024.ShapeCasts S1x1024
  broadcasts_S1x1024_S1024x1024 : S1x1024.Broadcasts S1024x1024
  inb_S1x1024_S1x1024_0_0 : ∀ a, (![0, 0] : Fin 2 → Nat) a + S1x1024.size a ≤ S1x1024.size a
  shapeCasts_S32768x1024_S8x4096x1024 : S32768x1024.ShapeCasts S8x4096x1024
  dot_S1024x8_S1024x8_S1024x1024_1_1_0_0_n_n_wf : DotDims.WF S1024x8 S1024x8 S1024x1024 [1] [1] [0] [0] [] []
  dot_S1024x1024_S1024x1024_S1024x1024_1_1_0_0_n_n_wf : DotDims.WF S1024x1024 S1024x1024 S1024x1024 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x8.size a ≤ S4096x8.size a
  k0_off2_inb : ∀ k0_t1 : Fin k0_t1_loop.trips, ∀ a, (k0_off2 k0_t1) a + S1x1024.size a ≤ S1x4096.size a
  k0_off3_inb : ∀ k0_t1 : Fin k0_t1_loop.trips, ∀ a, (k0_off3 k0_t1) a + S1024x1024.size a ≤ S1024x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S32768x8.size a
  hwx0_0 : ∀ i : grid0.Coords, EltTy.bits .f32 = 32 ∨ (Rect.block (s := S32768x8) S1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x8.size a ≤ S4096x8.size a
  hwx0_2 : ∀ i : grid0.Coords, EltTy.bits .bf16 = 32 ∨ (Rect.block (s := S4096x8) S4096x8.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S32768x1024.size a
  hwx0_6 : ∀ i : grid0.Coords, EltTy.bits .f32 = 32 ∨ (Rect.block (s := S32768x1024) S1024x1024.size (cc0_transform_6 i) (hinb0_6 i)).WholeWords (EltTy.packing .f32)

variable [Facts₀]

def dot_S1024x8_S1024x8_S1024x1024_1_1_0_0_n_n : DotDims S1024x8 S1024x8 S1024x1024 where
  lhsContracting := [1]
  rhsContracting := [1]
  lhsNonContracting := [0]
  rhsNonContracting := [0]
  lhsBatch := []
  rhsBatch := []
  wf := dot_S1024x8_S1024x8_S1024x1024_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v1) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4096x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S8x4096x8 : Shape := ⟨3, ![8, 4096, 8]⟩
abbrev S1x1x8 : Shape := ⟨3, ![1, 1, 8]⟩
abbrev S8x4096x4096 : Shape := ⟨3, ![8, 4096, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S8x4096x8, .f32⟩
  | .hbm, ⟨7, _⟩ => ⟨S8x4096x8, .f32⟩
  | .hbm, ⟨8, _⟩ => ⟨S8, .f32⟩
  | .hbm, ⟨9, _⟩ => ⟨S1x1x8, .f32⟩
  | .hbm, ⟨10, _⟩ => ⟨S8x4096x8, .f32⟩
  | .hbm, ⟨11, _⟩ => ⟨S8x4096x8, .f32⟩
  | .hbm, ⟨12, _⟩ => ⟨S8x4096x4096, .f32⟩
  | .hbm, ⟨13, _⟩ => ⟨S1x1x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x4096x1024_S8x4096x8_0_0_0 : S8x4096x1024.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S4096_S1x1x4096_2 : S4096.BroadcastsInDim S1x1x4096 (![2] : Fin 1 → Fin S1x1x4096.rank)
  bcast_S1x1x4096_S8x4096x4096_0_1_2 : S1x1x4096.BroadcastsInDim S8x4096x4096 (![0, 1, 2] : Fin 3 → Fin S8x4096x4096.rank)
  bcast_S_S8x4096x4096 : S_.BroadcastsInDim S8x4096x4096 (![] : Fin 0 → Fin S8x4096x4096.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x8_S4096x8_S8x4096x4096_2_1_01_0_n_n_wf : DotDims.WF S8x4096x8 S4096x8 S8x4096x4096 [2] [1] [0, 1] [0] [] []
  dot_S8x4096x4096_S1024x4096_S8x4096x1024_2_1_01_0_n_n_wf : DotDims.WF S8x4096x4096 S1024x4096 S8x4096x1024 [2] [1] [0, 1] [0] [] []

variable [Facts₀]

def dot_S8x4096x8_S4096x8_S8x4096x4096_2_1_01_0_n_n : DotDims S8x4096x8 S4096x8 S8x4096x4096 where
  lhsContracting := [2]
  rhsContracting := [1]
  lhsNonContracting := [0, 1]
  rhsNonContracting := [0]
  lhsBatch := []
  rhsBatch := []
  wf := dot_S8x4096x8_S4096x8_S8x4096x4096_2_1_01_0_n_n_wf
def dot_S8x4096x4096_S1024x4096_S8x4096x1024_2_1_01_0_n_n : DotDims S8x4096x4096 S1024x4096 S8x4096x1024 where
  lhsContracting := [2]
  rhsContracting := [1]
  lhsNonContracting := [0, 1]
  rhsNonContracting := [0]
  lhsBatch := []
  rhsBatch := []
  wf := dot_S8x4096x4096_S1024x4096_S8x4096x1024_2_1_01_0_n_n_wf

class Facts : Prop extends Facts₀ where

variable [Facts]
-- ==== Proof.Spec.lean ====
/-
  The function both programs compute, on the extended reals, index by index.

  For a token (b, s) the eight features are cos x(b,s,k) · cos θ(k), k < 8; the hidden layer is
  h(b,s,f) = max (∑ₖ feature(b,s,k) · w1(f,k) + b1(f)) 0, f < 4096; the output is
  out(b,s,e) = ∑_f h(b,s,f) · w2(e,f) + b2(e), e < 1024.

  `blockAt` is the same function written for one block of 1024 rows: of the block's rows of the sliced
  input (x0 : [1024, 8]), the row of cosines cos θ (x1 : [1, 8]), the two weight matrices (x2, x4) and the
  two bias rows (x3 : [1, 4096], x5 : [1, 1024]).  Nothing here mentions a program.
-/
import Idealize.ShloMosaic.PureOps.Ideal
import Idealize.ShloMosaic.Lib.ValueIdx

noncomputable section

namespace Cert.Mlp

open Idealize.ShloMosaic Idealize.ShloMosaic.ValueIdx

/-- The feature k of token (b, s): cos x(b,s,k) · cos θ(k). -/
def feat (x : (⟨3, ![8, 4096, 1024]⟩ : Shape).Idx → EReal) (θ : (⟨1, ![8]⟩ : Shape).Idx → EReal)
    (b : Fin 8) (s : Fin 4096) (k : Fin 8) : EReal :=
  Ideal.cos (x (ix3 b s (⟨k.val, by have := k.isLt; omega⟩ : Fin 1024))) * Ideal.cos (θ (ix1 k))

/-- The hidden unit f of token (b, s): max (∑ₖ feature · w1(f,k) + b1(f)) 0. -/
def hidden (x : (⟨3, ![8, 4096, 1024]⟩ : Shape).Idx → EReal) (θ : (⟨1, ![8]⟩ : Shape).Idx → EReal)
    (w1 : (⟨2, ![4096, 8]⟩ : Shape).Idx → EReal) (b1 : (⟨1, ![4096]⟩ : Shape).Idx → EReal)
    (b : Fin 8) (s : Fin 4096) (f : Fin 4096) : EReal :=
  max ((∑ k : Fin 8, feat x θ b s k * w1 (ix2 f k)) + b1 (ix1 f)) 0

/-- The output e of token (b, s): ∑_f hidden(f) · w2(e,f) + b2(e). -/
def out (x : (⟨3, ![8, 4096, 1024]⟩ : Shape).Idx → EReal) (θ : (⟨1, ![8]⟩ : Shape).Idx → EReal)
    (w1 : (⟨2, ![4096, 8]⟩ : Shape).Idx → EReal) (b1 : (⟨1, ![4096]⟩ : Shape).Idx → EReal)
    (w2 : (⟨2, ![1024, 4096]⟩ : Shape).Idx → EReal) (b2 : (⟨1, ![1024]⟩ : Shape).Idx → EReal)
    (b : Fin 8) (s : Fin 4096) (e : Fin 1024) : EReal :=
  (∑ f : Fin 4096, hidden x θ w1 b1 b s f * w2 (ix2 e f)) + b2 (ix1 e)

/-- The whole result array [8, 4096, 1024]. -/
def G (x : (⟨3, ![8, 4096, 1024]⟩ : Shape).Idx → EReal) (θ : (⟨1, ![8]⟩ : Shape).Idx → EReal)
    (w1 : (⟨2, ![4096, 8]⟩ : Shape).Idx → EReal) (b1 : (⟨1, ![4096]⟩ : Shape).Idx → EReal)
    (w2 : (⟨2, ![1024, 4096]⟩ : Shape).Idx → EReal) (b2 : (⟨1, ![1024]⟩ : Shape).Idx → EReal) :
    (⟨3, ![8, 4096, 1024]⟩ : Shape).Idx → EReal :=
  fun i => out x θ w1 b1 w2 b2 (i 0) (i 1) (i 2)

theorem G_ix3 (x : (⟨3, ![8, 4096, 1024]⟩ : Shape).Idx → EReal) (θ : (⟨1, ![8]⟩ : Shape).Idx → EReal)
    (w1 : (⟨2, ![4096, 8]⟩ : Shape).Idx → EReal) (b1 : (⟨1, ![4096]⟩ : Shape).Idx → EReal)
    (w2 : (⟨2, ![1024, 4096]⟩ : Shape).Idx → EReal) (b2 : (⟨1, ![1024]⟩ : Shape).Idx → EReal)
    (b : Fin 8) (s : Fin 4096) (e : Fin 1024) :
    G x θ w1 b1 w2 b2 (ix3 b s e) = out x θ w1 b1 w2 b2 b s e := rfl

/-- Row r, column e of one block of 1024 rows, from the block's own operands. -/
def blockAt (x0 : (⟨2, ![1024, 8]⟩ : Shape).Idx → EReal) (x1 : (⟨2, ![1, 8]⟩ : Shape).Idx → EReal)
    (x2 : (⟨2, ![4096, 8]⟩ : Shape).Idx → EReal) (x3 : (⟨2, ![1, 4096]⟩ : Shape).Idx → EReal)
    (x4 : (⟨2, ![1024, 4096]⟩ : Shape).Idx → EReal) (x5 : (⟨2, ![1, 1024]⟩ : Shape).Idx → EReal)
    (r : Fin 1024) (e : Fin 1024) : EReal :=
  (∑ f : Fin 4096,
      max ((∑ k : Fin 8, (Ideal.cos (x0 (ix2 r k)) * x1 (ix2 (0 : Fin 1) k)) * x2 (ix2 f k)) + x3 (ix2 (0 : Fin 1) f)) 0
        * x4 (ix2 e f))
    + x5 (ix2 (0 : Fin 1) e)

/-- One block [1024, 1024] of the flat result. -/
def blockOut (x0 : (⟨2, ![1024, 8]⟩ : Shape).Idx → EReal) (x1 : (⟨2, ![1, 8]⟩ : Shape).Idx → EReal)
    (x2 : (⟨2, ![4096, 8]⟩ : Shape).Idx → EReal) (x3 : (⟨2, ![1, 4096]⟩ : Shape).Idx → EReal)
    (x4 : (⟨2, ![1024, 4096]⟩ : Shape).Idx → EReal) (x5 : (⟨2, ![1, 1024]⟩ : Shape).Idx → EReal) :
    (⟨2, ![1024, 1024]⟩ : Shape).Idx → EReal :=
  fun y => blockAt x0 x1 x2 x3 x4 x5 (y 0) (y 1)

theorem blockOut_ix2 (x0 : (⟨2, ![1024, 8]⟩ : Shape).Idx → EReal) (x1 : (⟨2, ![1, 8]⟩ : Shape).Idx → EReal)
    (x2 : (⟨2, ![4096, 8]⟩ : Shape).Idx → EReal) (x3 : (⟨2, ![1, 4096]⟩ : Shape).Idx → EReal)
    (x4 : (⟨2, ![1024, 4096]⟩ : Shape).Idx → EReal) (x5 : (⟨2, ![1, 1024]⟩ : Shape).Idx → EReal)
    (r : Fin 1024) (e : Fin 1024) :
    blockOut x0 x1 x2 x3 x4 x5 (ix2 r e) = blockAt x0 x1 x2 x3 x4 x5 r e := rfl

end Cert.Mlp

end
-- ==== Proof.RefSpec.lean ====
/-
  The reference program computes the specification.

  The reference is read one stage at a time, each stage at an index given by its coordinates:
  the product of cosines at (b, s, k) is the feature k of token (b, s); the rectified sum over the
  eight features at (b, s, f) is the hidden unit f; the sum over the 4096 hidden units at
  (b, s, e), plus the bias, is the output e.  The only work is to identify the index at which
  each stage reads its operand with the index the specification names; the reference multiplies
  in the specification's order, so no algebra is needed.
-/
import proofs.«177052_j65481071399837_2_alg».proof.Proof.Gen.ReferenceIdeal.Read
import proofs.«177052_j65481071399837_2_alg».proof.Proof.Spec

open Idealize.ShloMosaic Idealize.ShloMosaic.TcCoe Idealize.SL.Sem

noncomputable section

namespace Cert.Mlp.Ref

open Cert.ReferenceIdeal Cert.ReferenceIdeal.Read Idealize.ShloMosaic.ValueIdx

/-! ## Where each stage reads its operand -/

/-- The slice of the first eight columns reads column k of the input's 1024. -/
theorem slice_idx (b : Fin 8) (s : Fin 4096) (k : Fin 8) :
    idx_main_v0 (ix3 b s k) = ix3 b s (⟨k.val, by have := k.isLt; omega⟩ : Fin 1024) :=
  funext fun a => Fin.ext (by match a with | ⟨0, _⟩ => rfl | ⟨1, _⟩ => rfl | ⟨2, _⟩ => rfl)

/-- The row of angles, broadcast over tokens, is read at the column. -/
theorem theta_idx (b : Fin 8) (s : Fin 4096) (k : Fin 8) :
    idx_main_v3 (idx_main_v4 (ix3 b s k)) = ix1 k :=
  funext fun a => Fin.ext (by match a with | ⟨0, _⟩ => rfl)

/-- The first contraction reads the features of the token … -/
theorem lhs1_idx (b : Fin 8) (s : Fin 4096) (f : Fin 4096) (k : Fin 8) :
    lidx_main_v6 (ix3 b s f) k = ix3 b s k :=
  funext fun a => Fin.ext (by match a with | ⟨0, _⟩ => rfl | ⟨1, _⟩ => rfl | ⟨2, _⟩ => rfl)

/-- … against row f of the first weight matrix. -/
theorem rhs1_idx (b : Fin 8) (s : Fin 4096) (f : Fin 4096) (k : Fin 8) :
    ridx_main_v6 (ix3 b s f) k = ix2 f k :=
  funext fun a => Fin.ext (by match a with | ⟨0, _⟩ => rfl | ⟨1, _⟩ => rfl)

/-- The first bias, broadcast over tokens, is read at the hidden unit. -/
theorem bias1_idx (b : Fin 8) (s : Fin 4096) (f : Fin 4096) :
    idx_main_v7 (idx_main_v8 (ix3 b s f)) = ix1 f :=
  funext fun a => Fin.ext (by match a with | ⟨0, _⟩ => rfl)

/-- The second contraction reads the hidden units of the token … -/
theorem lhs2_idx (b : Fin 8) (s : Fin 4096) (e : Fin 1024) (f : Fin 4096) :
    lidx_main_v11 (ix3 b s e) f = ix3 b s f :=
  funext fun a => Fin.ext (by match a with | ⟨0, _⟩ => rfl | ⟨1, _⟩ => rfl | ⟨2, _⟩ => rfl)

/-- … against row e of the second weight matrix. -/
theorem rhs2_idx (b : Fin 8) (s : Fin 4096) (e : Fin 1024) (f : Fin 4096) :
    ridx_main_v11 (ix3 b s e) f = ix2 e f :=
  funext fun a => Fin.ext (by match a with | ⟨0, _⟩ => rfl | ⟨1, _⟩ => rfl)

/-- The second bias, broadcast over tokens, is read at the output column. -/
theorem bias2_idx (b : Fin 8) (s : Fin 4096) (e : Fin 1024) :
    idx_main_v12 (idx_main_v13 (ix3 b s e)) = ix1 e :=
  funext fun a => Fin.ext (by match a with | ⟨0, _⟩ => rfl)

/-! ## The stages at coordinates -/

/-- The product of cosines at (b, s, k) is the feature k of token (b, s). -/
theorem feat_at (x0 : (⟨S8x4096x1024, .f32⟩ : BufTy).Contents (Elt Ideal)) (x1 : (⟨S8, .f32⟩ : BufTy).Contents (Elt Ideal))
    (b : Fin 8) (s : Fin 4096) (k : Fin 8) :
    val_main_v5 (F := Ideal) x0 x1 (ix3 b s k) = feat x0 x1 b s k := by
  rw [val_main_v5_apply, val_main_v1_apply, val_main_v0_apply, val_main_v4_apply, val_main_v3_apply,
    val_main_v2_apply, slice_idx, theta_idx]
  simp only [Ideal.mulf_def, Ideal.hostUnary_cos_def]
  rfl

/-- The rectified affine image of the features at (b, s, f) is the hidden unit f of token (b, s). -/
theorem hidden_at (x0 : (⟨S8x4096x1024, .f32⟩ : BufTy).Contents (Elt Ideal)) (x1 : (⟨S8, .f32⟩ : BufTy).Contents (Elt Ideal))
    (x2 : (⟨S4096x8, .f32⟩ : BufTy).Contents (Elt Ideal)) (x3 : (⟨S4096, .f32⟩ : BufTy).Contents (Elt Ideal))
    (b : Fin 8) (s : Fin 4096) (f : Fin 4096) :
    val_main_v10 (F := Ideal) x0 x1 x2 x3 (ix3 b s f) = hidden x0 x1 x2 x3 b s f := by
  rw [val_main_v10_apply, val_main_v9_apply, val_main_v6_apply, val_main_v8_apply, val_main_v7_apply,
    val_main_call0_v0_apply, val_main_call0_cst_apply, bias1_idx]
  simp only [Ideal.maximumf_def, Ideal.addf_def, Ideal.ofBits_def, Ideal.ofBits_zero_f32]
  unfold hidden
  congr 2
  refine Finset.sum_congr rfl fun k _ => ?_
  rw [lhs1_idx, rhs1_idx, feat_at]

/-- The reference's result at (b, s, e) is the output e of token (b, s). -/
theorem out_at (x0 : (⟨S8x4096x1024, .f32⟩ : BufTy).Contents (Elt Ideal)) (x1 : (⟨S8, .f32⟩ : BufTy).Contents (Elt Ideal))
    (x2 : (⟨S4096x8, .f32⟩ : BufTy).Contents (Elt Ideal)) (x3 : (⟨S4096, .f32⟩ : BufTy).Contents (Elt Ideal))
    (x4 : (⟨S1024x4096, .f32⟩ : BufTy).Contents (Elt Ideal)) (x5 : (⟨S1024, .f32⟩ : BufTy).Contents (Elt Ideal))
    (b : Fin 8) (s : Fin 4096) (e : Fin 1024) :
    val_main_v14 (F := Ideal) x0 x1 x2 x3 x4 x5 (ix3 b s e) = out x0 x1 x2 x3 x4 x5 b s e := by
  rw [val_main_v14_apply, val_main_v11_apply, val_main_v13_apply, val_main_v12_apply, bias2_idx]
  simp only [Ideal.addf_def]
  unfold out
  congr 1
  refine Finset.sum_congr rfl fun f _ => ?_
  rw [lhs2_idx, rhs2_idx, hidden_at]

/-- The reference program's result is the specification. -/
theorem ref_eq (x0 : (⟨S8x4096x1024, .f32⟩ : BufTy).Contents (Elt Ideal)) (x1 : (⟨S8, .f32⟩ : BufTy).Contents (Elt Ideal))
    (x2 : (⟨S4096x8, .f32⟩ : BufTy).Contents (Elt Ideal)) (x3 : (⟨S4096, .f32⟩ : BufTy).Contents (Elt Ideal))
    (x4 : (⟨S1024x4096, .f32⟩ : BufTy).Contents (Elt Ideal)) (x5 : (⟨S1024, .f32⟩ : BufTy).Contents (Elt Ideal)) :
    Cert.ReferenceIdeal.Read.val_main_v14 (F := Ideal) x0 x1 x2 x3 x4 x5 = Cert.Mlp.G x0 x1 x2 x3 x4 x5 := by
  funext i
  obtain ⟨b, s, e, rfl⟩ : ∃ (b : Fin 8) (s : Fin 4096) (e : Fin 1024), i = ValueIdx.ix3 b s e :=
    ⟨i 0, i 1, i 2, ValueIdx.eq_ix3 i⟩
  rw [Cert.Mlp.G_ix3]
  exact out_at x0 x1 x2 x3 x4 x5 b s e

end Cert.Mlp.Ref

end
-- ==== Proof.Trip.lean ====
/-
  The accumulator carried through the kernel body's loop over the four chunks of the hidden axis.

  The body zero-fills a [1024, 1024] accumulator, and trip k of its loop reads the accumulator back, adds one
  chunk's contribution (a function of rows 1024 k … 1024 k + 1023 of the first weight matrix, of the same
  columns of the first bias row and of the second weight matrix) and stores the sum over the whole accumulator.
  So after n trips the accumulator reads `accN n`: the zero block at n = 0, and one more chunk's payload
  applied to `accN n` at n + 1 — whatever memory the accumulator lives in.
-/
import proofs.«177052_j65481071399837_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.Mlp.Body

open Cert.KernelIdeal Cert.KernelIdeal.Gen

variable {F : FTy → Type} [FloatOps F]

theorem hz : (![0, 0] : Fin 2 → Nat) = fun _ => 0 := funext fun a => by fin_cases a <;> rfl

/-- Rows 1024 k … 1024 k + 1023 of the first weight matrix. -/
def w1c (x2 : Vec F S4096x8 .bf16) (k : Fin k0_t1_loop.trips) : Vec F S1024x8 .bf16 :=
  View.ld x2 (Rect.unit (s := S4096x8) (k0_off1 k) S1024x8.size (k0_off1_inb k))
/-- Columns 1024 k … 1024 k + 1023 of the first bias row. -/
def b1c (x3 : Vec F S1x4096 .f32) (k : Fin k0_t1_loop.trips) : Vec F S1x1024 .f32 :=
  View.ld x3 (Rect.unit (s := S1x4096) (k0_off2 k) S1x1024.size (k0_off2_inb k))
/-- Columns 1024 k … 1024 k + 1023 of the second weight matrix. -/
def w2c (x4 : Vec F S1024x4096 .bf16) (k : Fin k0_t1_loop.trips) : Vec F S1024x1024 .bf16 :=
  View.ld x4 (Rect.unit (s := S1024x4096) (k0_off3 k) S1024x1024.size (k0_off3_inb k))

/-- The accumulator after n trips. -/
def accN (x0 : Vec F S1024x8 .f32) (x1 : Vec F S1x8 .f32) (x2 : Vec F S4096x8 .bf16) (x3 : Vec F S1x4096 .f32)
    (x4 : Vec F S1024x4096 .bf16) : ℕ → Vec F S1024x1024 .f32
  | 0 => k0_pay1
  | n + 1 => if h : n < k0_t1_loop.trips then
      k0_pay2 x0 x1 (w1c x2 ⟨n, h⟩) (b1c x3 ⟨n, h⟩) (w2c x4 ⟨n, h⟩) (accN x0 x1 x2 x3 x4 n)
    else accN x0 x1 x2 x3 x4 n

theorem accN_succ (x0 : Vec F S1024x8 .f32) (x1 : Vec F S1x8 .f32) (x2 : Vec F S4096x8 .bf16) (x3 : Vec F S1x4096 .f32)
    (x4 : Vec F S1024x4096 .bf16) (k : Fin k0_t1_loop.trips) :
    accN x0 x1 x2 x3 x4 (k.val + 1) = k0_pay2 x0 x1 (w1c x2 k) (b1c x3 k) (w2c x4 k) (accN x0 x1 x2 x3 x4 k.val) := by
  rw [accN]; exact dif_pos k.isLt

/-- One trip stores, over the whole accumulator, the chunk's payload of what it loaded. -/
theorem tripL_eq (𝒱 : Variants) (c : Dev nD) (bd : Option 𝒱.V) (i : grid0.Coords) (arg1 : Memref sig .tc .vmem S1024x8 .f32) (harg1 : arg1.IsWhole) (arg2 : Memref sig .tc .vmem S1x8 .f32) (harg2 : arg2.IsWhole) (arg3 : Memref sig .tc .vmem S4096x8 .bf16) (harg3 : arg3.IsWhole) (arg4 : Memref sig .tc .vmem S1x4096 .f32) (harg4 : arg4.IsWhole) (arg5 : Memref sig .tc .vmem S1024x4096 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole)
    (v0 : Vec F S1024x8 .f32) (v3 : Vec F S1x8 .f32) (X_arg3 : BufTy.Contents (Elt F) arg3.view.ty)
    (X_arg4 : BufTy.Contents (Elt F) arg4.view.ty) (X_arg5 : BufTy.Contents (Elt F) arg5.view.ty)
    (k : Fin k0_t1_loop.trips) (f_arg8 : BufTy.Contents (Elt F) arg8.view.ty) :
    tripL_k0_t1 (F := F) 𝒱 c bd i arg1 harg1 arg2 harg2 arg3 harg3 arg4 harg4 arg5 harg5 arg6 harg6 arg7 harg7 arg8 harg8 v0 v3 X_arg3 X_arg4 X_arg5 k f_arg8
      = [⟨(Rect.unit (s := S1024x1024) ![0, 0] S1024x1024.size inb_S1024x1024_S1024x1024_0_0),
          k0_pay2 v0 v3
            (View.readAt (Elt F) arg3.view (Rect.unit (s := S4096x8) (k0_off1 k) S1024x8.size (k0_off1_inb k)).toLoadRect X_arg3)
            (View.readAt (Elt F) arg4.view (Rect.unit (s := S1x4096) (k0_off2 k) S1x1024.size (k0_off2_inb k)).toLoadRect X_arg4)
            (View.readAt (Elt F) arg5.view (Rect.unit (s := S1024x4096) (k0_off3 k) S1024x1024.size (k0_off3_inb k)).toLoadRect X_arg5)
            (View.readAt (Elt F) arg8.view (Rect.unit (s := S1024x1024) ![0, 0] S1024x1024.size inb_S1024x1024_S1024x1024_0_0).toLoadRect f_arg8)⟩] := by
  unfold tripL_k0_t1 trip_k0_t1
  rfl

/-- The accumulator read back after n trips, from the zero fill: `accN n`. -/
theorem readback (c : Dev nD) (i : grid0.Coords) (arg1 : Memref sig .tc .vmem S1024x8 .f32) (harg1 : arg1.IsWhole) (arg2 : Memref sig .tc .vmem S1x8 .f32) (harg2 : arg2.IsWhole) (arg3 : Memref sig .tc .vmem S4096x8 .bf16) (harg3 : arg3.IsWhole) (arg4 : Memref sig .tc .vmem S1x4096 .f32) (harg4 : arg4.IsWhole) (arg5 : Memref sig .tc .vmem S1024x4096 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole)
    (x0 : Vec F S1024x8 .f32) (x1 : Vec F S1x8 .f32) (x2 : Vec F S4096x8 .bf16) (x3 : Vec F S1x4096 .f32)
    (x4 : Vec F S1024x4096 .bf16) :
    ∀ n : ℕ, n ≤ k0_t1_loop.trips →
    View.readAt (Elt F) arg8.view (Rect.unit (s := S1024x1024) ![0, 0] S1024x1024.size inb_S1024x1024_S1024x1024_0_0).toLoadRect
      (arg8.view.writes (Elt F) arg8.view.junk
        (pb_k0_t1 (F := F) Variants.none c none i arg1 harg1 arg2 harg2 arg3 harg3 arg4 harg4 arg5 harg5 arg6 harg6 arg7 harg7 arg8 harg8 x0 x1 (harg3.unread x2) (harg4.unread x3) (harg5.unread x4)
            (arg8.view.writes (Elt F) arg8.view.junk [⟨(Rect.unit (s := S1024x1024) ![0, 0] S1024x1024.size inb_S1024x1024_S1024x1024_0_0), k0_pay1⟩]) n
          ++ [⟨(Rect.unit (s := S1024x1024) ![0, 0] S1024x1024.size inb_S1024x1024_S1024x1024_0_0), k0_pay1⟩]))
      = accN x0 x1 x2 x3 x4 n
  | 0, _ => by
    rw [pb_k0_t1, List.nil_append, View.readAt_eq_ld, View.read_writes_junk_eq_canon, View.canon_unit_zero hz,
      View.ld_unit_zero hz]
    rfl
  | n + 1, hn => by
    have ih := readback c i arg1 harg1 arg2 harg2 arg3 harg3 arg4 harg4 arg5 harg5 arg6 harg6 arg7 harg7 arg8 harg8 x0 x1 x2 x3 x4 n (Nat.le_of_succ_le hn)
    have hlt : n < k0_t1_loop.trips := hn
    rw [View.writes_append] at ih
    rw [show n + 1 = (⟨n, hlt⟩ : Fin k0_t1_loop.trips).val + 1 from rfl, pb_k0_t1_succ, tripL_eq, accN_succ,
      List.cons_append, List.nil_append, List.cons_append, View.readAt_eq_ld, View.read_writes_junk_eq_canon,
      View.canon_cons_unit_zero hz, View.ld_unit_zero hz, ih]
    simp only [View.readAt_eq_ld, harg3.read_unread, harg4.read_unread, harg5.read_unread, w1c, b1c, w2c]

end Cert.Mlp.Body

end
-- ==== Proof.Body.lean ====
/-
  What the kernel body leaves in its output block.

  The body's one store into the output block writes, over the whole block, the accumulator read back after the
  loop's last trip plus the second bias row spread down the rows.  With the accumulator after the trips known
  (`accN`), the output block is one pure function of the six input blocks.
-/
import proofs.«177052_j65481071399837_2_alg».proof.Proof.Gen.KernelIdeal.Frame
import Idealize.ShloMosaic.Lib.Pipeline.Value
import Idealize.ShloMosaic.Lib.Tactic
import proofs.«177052_j65481071399837_2_alg».proof.Proof.Trip

set_option maxRecDepth 16384

noncomputable section

open Idealize.ShloMosaic Idealize.ShloMosaic.TcCoe Idealize.ShloMosaic.Tactic Idealize.SL.Sem

namespace Cert.Mlp.Body

open Cert.KernelIdeal Cert.KernelIdeal.Gen

variable {F : FTy → Type} [FloatOps F]

/-- The output block after the body, from the input blocks alone. -/
theorem out_eq (c : Dev nD) (i : grid0.Coords) (arg1 : Memref sig .tc .vmem S1024x8 .f32) (harg1 : arg1.IsWhole) (arg2 : Memref sig .tc .vmem S1x8 .f32) (harg2 : arg2.IsWhole) (arg3 : Memref sig .tc .vmem S4096x8 .bf16) (harg3 : arg3.IsWhole) (arg4 : Memref sig .tc .vmem S1x4096 .f32) (harg4 : arg4.IsWhole) (arg5 : Memref sig .tc .vmem S1024x4096 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole)
    (x0 : Vec F S1024x8 .f32) (x1 : Vec F S1x8 .f32) (x2 : Vec F S4096x8 .bf16) (x3 : Vec F S1x4096 .f32) (x4 : Vec F S1024x4096 .bf16) (x5 : Vec F S1x1024 .f32) :
    out0_A_6 c i arg1 harg1 arg2 harg2 arg3 harg3 arg4 harg4 arg5 harg5 arg6 harg6 arg7 harg7 arg8 harg8 x0 x1 x2 x3 x4 x5
      = k0_pay3 (accN x0 x1 x2 x3 x4 k0_t1_loop.trips) x5 := by
  have e0 : View.readAt (Elt F) arg1.view (Rect.unit (s := S1024x8) ![0, 0] S1024x8.size inb_S1024x8_S1024x8_0_0).toLoadRect (harg1.unread x0) = x0 := by
    rw [View.readAt_eq_ld, harg1.read_unread, View.ld_unit_zero hz]
  have e1 : View.readAt (Elt F) arg2.view (Rect.unit (s := S1x8) ![0, 0] S1x8.size inb_S1x8_S1x8_0_0).toLoadRect (harg2.unread x1) = x1 := by
    rw [View.readAt_eq_ld, harg2.read_unread, View.ld_unit_zero hz]
  have e5 : View.readAt (Elt F) arg6.view (Rect.unit (s := S1x1024) ![0, 0] S1x1024.size inb_S1x1024_S1x1024_0_0).toLoadRect (harg6.unread x5) = x5 := by
    rw [View.readAt_eq_ld, harg6.read_unread, View.ld_unit_zero hz]
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  try sl_unfold_words
  rw [View.canon_unit_zero hz, e0, e1, e5]
  exact congrArg (k0_pay3 · x5) (readback c i arg1 harg1 arg2 harg2 arg3 harg3 arg4 harg4 arg5 harg5 arg6 harg6 arg7 harg7 arg8 harg8 x0 x1 x2 x3 x4 _ le_rfl)

/-- The same at a grid point: what the output's staging buffer holds after the body there. -/
theorem outsAt0_eq_pay (m : (ℓ : Loc nD τ sig) → Buf (Elt F) ℓ) (c : Dev nD) (t : Fin cfg0.N) :
    outsAt0 m c t
      = k0_pay3 (accN (iblk m c 0 t) (iblk m c 1 t) (iblk m c 2 t) (iblk m c 3 t) (iblk m c 4 t) k0_t1_loop.trips) (iblk m c 5 t) := by
  unfold outsAt0
  exact out_eq c _ _ _ _ _ _ _ _ _ _ _ _ _ _ _ _ _ _ _ _ _ _ _

end Cert.Mlp.Body

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.Payload.lean ====
/-
  The kernel body's arithmetic on the extended reals, read at an index.

  Three pure terms make up the body: the zero block the accumulator starts from; one trip's update — the
  accumulator plus the product of the chunk's hidden units with the chunk's columns of the second weight
  matrix, the hidden units being max (features · chunk's rows of the first weight matrix + chunk's bias) 0 and
  the features cos x · cos θ —; and the last step, the accumulator plus the second bias row spread down the
  rows.  A product of an [m, k] block with the transpose of an [n, k] block, into the zero block, is at (r, j)
  the sum over the k shared columns of the two rows' products; a [1, n] row spread over m rows is at (r, j)
  its entry j; a change of float format is the identity.
-/
import proofs.«177052_j65481071399837_2_alg».proof.Proof.Gen.KernelIdeal.Skeleton
import proofs.«177052_j65481071399837_2_alg».proof.Proof.LibContract
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.Mlp.Pay

open Cert.KernelIdeal Cert.KernelIdeal.Gen

/-- Rows r of an [1024, 8] block and j of another, multiplied along their 8 columns. -/
theorem matmul8 {φ₁ φ₂ : FTy} (A : FVec Ideal S1024x8 φ₁) (B : FVec Ideal S1024x8 φ₂) (r j : Fin 1024) :
    matmul dot_S1024x8_S1024x8_S1024x1024_1_1_0_0_n_n none A B (constant (F := Ideal) S1024x1024 .f32 0x00000000#32) (ix2 r j)
      = ∑ q : Fin 8, A (ix2 r q) * B (ix2 j q) := by
  refine ContractSingle.matmul_zero_single dot_S1024x8_S1024x8_S1024x1024_1_1_0_0_n_n none 8 rfl rfl A B (ix2 r j) (fun q => A (ix2 r q)) (fun q => B (ix2 j q)) (fun q => ?_) (fun q => ?_)
  · have hk := contrEquiv1_symm_val dot_S1024x8_S1024x8_S1024x1024_1_1_0_0_n_n 8 rfl rfl q
    refine congrArg A (funext fun a => Fin.ext ?_)
    match a with
    | ⟨0, _⟩ =>
      show (dot_S1024x8_S1024x8_S1024x1024_1_1_0_0_n_n.lhsIdx (ix2 r j) _ 0).val = r.val
      unfold DotDims.lhsIdx
      rw [dif_neg (show ¬(0 : Fin S1024x8.rank) ∈ dot_S1024x8_S1024x8_S1024x1024_1_1_0_0_n_n.lhsBatch by decide), dif_pos (show (0 : Fin S1024x8.rank) ∈ dot_S1024x8_S1024x8_S1024x1024_1_1_0_0_n_n.lhsNonContracting by decide)]
      rfl
    | ⟨1, _⟩ => exact (dot_S1024x8_S1024x8_S1024x1024_1_1_0_0_n_n.lhsIdx_val_of_single rfl (ix2 r j) _).trans hk
  · have hk := contrEquiv1_symm_val dot_S1024x8_S1024x8_S1024x1024_1_1_0_0_n_n 8 rfl rfl q
    refine congrArg B (funext fun a => Fin.ext ?_)
    match a with
    | ⟨0, _⟩ =>
      show (dot_S1024x8_S1024x8_S1024x1024_1_1_0_0_n_n.rhsIdx (ix2 r j) _ 0).val = j.val
      unfold DotDims.rhsIdx
      rw [dif_neg (show ¬(0 : Fin S1024x8.rank) ∈ dot_S1024x8_S1024x8_S1024x1024_1_1_0_0_n_n.rhsBatch by decide), dif_pos (show (0 : Fin S1024x8.rank) ∈ dot_S1024x8_S1024x8_S1024x1024_1_1_0_0_n_n.rhsNonContracting by decide)]
      rfl
    | ⟨1, _⟩ => exact (dot_S1024x8_S1024x8_S1024x1024_1_1_0_0_n_n.rhsIdx_val_of_single rfl (ix2 r j) _).trans hk

/-- Rows r of an [1024, 1024] block and e of another, multiplied along their 1024 columns. -/
theorem matmul1024 {φ₁ φ₂ : FTy} (A : FVec Ideal S1024x1024 φ₁) (B : FVec Ideal S1024x1024 φ₂) (r e : Fin 1024) :
    matmul dot_S1024x1024_S1024x1024_S1024x1024_1_1_0_0_n_n none A B (constant (F := Ideal) S1024x1024 .f32 0x00000000#32) (ix2 r e)
      = ∑ j : Fin 1024, A (ix2 r j) * B (ix2 e j) := by
  refine ContractSingle.matmul_zero_single dot_S1024x1024_S1024x1024_S1024x1024_1_1_0_0_n_n none 1024 rfl rfl A B (ix2 r e) (fun j => A (ix2 r j)) (fun j => B (ix2 e j)) (fun q => ?_) (fun q => ?_)
  · have hk := contrEquiv1_symm_val dot_S1024x1024_S1024x1024_S1024x1024_1_1_0_0_n_n 1024 rfl rfl q
    refine congrArg A (funext fun a => Fin.ext ?_)
    match a with
    | ⟨0, _⟩ =>
      show (dot_S1024x1024_S1024x1024_S1024x1024_1_1_0_0_n_n.lhsIdx (ix2 r e) _ 0).val = r.val
      unfold DotDims.lhsIdx
      rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
      rfl
    | ⟨1, _⟩ => exact (dot_S1024x1024_S1024x1024_S1024x1024_1_1_0_0_n_n.lhsIdx_val_of_single rfl (ix2 r e) _).trans hk
  · have hk := contrEquiv1_symm_val dot_S1024x1024_S1024x1024_S1024x1024_1_1_0_0_n_n 1024 rfl rfl q
    refine congrArg B (funext fun a => Fin.ext ?_)
    match a with
    | ⟨0, _⟩ =>
      show (dot_S1024x1024_S1024x1024_S1024x1024_1_1_0_0_n_n.rhsIdx (ix2 r e) _ 0).val = e.val
      unfold DotDims.rhsIdx
      rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
      rfl
    | ⟨1, _⟩ => exact (dot_S1024x1024_S1024x1024_S1024x1024_1_1_0_0_n_n.rhsIdx_val_of_single rfl (ix2 r e) _).trans hk

/-- The accumulator starts at zero. -/
theorem pay1_apply (y : S1024x1024.Idx) : k0_pay1 (F := Ideal) y = 0 := by
  unfold k0_pay1
  simp only [shapeCast_self]
  exact Ideal.ofBits_zero_f32

/-- The last step: the accumulator plus the bias row's entry of the column. -/
theorem pay3_apply (v13 : Vec Ideal S1024x1024 .f32) (v14 : Vec Ideal S1x1024 .f32) (r e : Fin 1024) :
    k0_pay3 (F := Ideal) v13 v14 (ix2 r e) = v13 (ix2 r e) + v14 (ix2 (0 : Fin 1) e) := by
  unfold k0_pay3
  simp only [shapeCast_self]
  show v13 (ix2 r e) + broadcastTo S1024x1024 v14 _ (ix2 r e) = _
  rw [broadcastTo_1b_ab_apply]

/-- The features of row r: cos x · cos θ. -/
theorem feat_apply (v0 : Vec Ideal S1024x8 .f32) (v3 : Vec Ideal S1x8 .f32) (r : Fin 1024) (q : Fin 8) :
    (truncf .bf16 (mulf (cos v0) (broadcastTo S1024x8 v3 broadcasts_S1x8_S1024x8)) bitsLt_bf16_f32 : FVec Ideal S1024x8 .bf16) (ix2 r q)
      = Ideal.cos (v0 (ix2 r q)) * v3 (ix2 (0 : Fin 1) q) := by
  show Ideal.cos (v0 (ix2 r q)) * broadcastTo S1024x8 v3 _ (ix2 r q) = _
  rw [broadcastTo_1b_ab_apply]

/-- One trip's update at (r, e): the accumulator plus the chunk's hidden units times the chunk's columns of the
    second weight matrix. -/
theorem pay2_apply (v0 : Vec Ideal S1024x8 .f32) (v3 : Vec Ideal S1x8 .f32) (v22 : Vec Ideal S1024x8 .bf16)
    (v25 : Vec Ideal S1x1024 .f32) (v34 : Vec Ideal S1024x1024 .bf16) (v37 : Vec Ideal S1024x1024 .f32) (r e : Fin 1024) :
    k0_pay2 (F := Ideal) v0 v3 v22 v25 v34 v37 (ix2 r e)
      = v37 (ix2 r e) + ∑ j : Fin 1024,
          max ((∑ q : Fin 8, (Ideal.cos (v0 (ix2 r q)) * v3 (ix2 (0 : Fin 1) q)) * v22 (ix2 j q)) + v25 (ix2 (0 : Fin 1) j)) 0
            * v34 (ix2 e j) := by
  unfold k0_pay2
  simp only [shapeCast_self]
  show v37 (ix2 r e) + matmul dot_S1024x1024_S1024x1024_S1024x1024_1_1_0_0_n_n none _ _ (constant (F := Ideal) S1024x1024 .f32 0x00000000#32) (ix2 r e) = _
  rw [matmul1024]
  refine congrArg (v37 (ix2 r e) + ·) (Finset.sum_congr rfl fun j _ => ?_)
  refine congrArg (· * v34 (ix2 e j)) ?_
  show max (matmul dot_S1024x8_S1024x8_S1024x1024_1_1_0_0_n_n none _ _ (constant (F := Ideal) S1024x1024 .f32 0x00000000#32) (ix2 r j) + broadcastTo S1024x1024 _ _ (ix2 r j)) (Ideal.ofBits .f32 0x00000000#32) = _
  rw [matmul8, broadcastTo_1b_ab_apply, Ideal.ofBits_zero_f32]
  refine congrArg (max · 0) (congrArg (· + v25 (ix2 (0 : Fin 1) j)) (Finset.sum_congr rfl fun q _ => ?_))
  rw [feat_apply]

end Cert.Mlp.Pay

end
-- ==== Proof.LibBlockSum.lean ====
/-
  A sum over `a * b` consecutive indices, taken block by block.

  The indices below `a * b` are the numbers `b * k + l` with `k < a` and `l < b`, each once, so in any
  commutative monoid the sum of `f` over them is the sum over the blocks `k` of the sums over the offsets `l`.
  A running total over the first `n` blocks (`blockPartial`) starts at the first block's sum, gains one block's
  sum per step, and is the whole sum after `a` blocks.
  Nothing here mentions a program: the file depends on Mathlib only.
-/
import Mathlib

open scoped BigOperators

namespace Cert.BlockSum

variable {M : Type*} [AddCommMonoid M]

/-- The index `b * k + l` below `a * b`. -/
def blockIdx (a b : ℕ) (k : Fin a) (l : Fin b) : Fin (a * b) :=
  ⟨b * k.val + l.val, by
    have hk := k.isLt; have hl := l.isLt
    calc b * k.val + l.val < b * k.val + b := by omega
      _ = b * (k.val + 1) := by ring
      _ ≤ b * a := Nat.mul_le_mul_left b hk
      _ = a * b := Nat.mul_comm b a⟩

/-- A sum over `a * b` indices is the sum over `a` blocks of the sums over the `b` offsets in a block. -/
theorem sum_blocks (a b : ℕ) (f : Fin (a * b) → M) :
    ∑ i : Fin (a * b), f i = ∑ k : Fin a, ∑ l : Fin b, f (blockIdx a b k l) := by
  rw [← Equiv.sum_comp finProdFinEquiv f, Fintype.sum_prod_type]
  refine Finset.sum_congr rfl fun k _ => Finset.sum_congr rfl fun l _ => congrArg f (Fin.ext ?_)
  simp [blockIdx, finProdFinEquiv, Nat.add_comm]

/-- The total of the first `n` blocks (blocks past the last contribute nothing). -/
def blockPartial (a : ℕ) (g : Fin a → M) (n : ℕ) : M :=
  ∑ k : Fin a, if k.val < n then g k else 0

theorem blockPartial_zero (a : ℕ) (g : Fin a → M) : blockPartial a g 0 = 0 := by
  simp [blockPartial]

/-- One more block adds that block's sum. -/
theorem blockPartial_succ (a : ℕ) (g : Fin a → M) (n : ℕ) (hn : n < a) :
    blockPartial a g (n + 1) = blockPartial a g n + g ⟨n, hn⟩ := by
  unfold blockPartial
  have h : ∀ k : Fin a, (if k.val < n + 1 then g k else 0) = (if k.val < n then g k else 0) + (if k = ⟨n, hn⟩ then g k else 0) := by
    intro k
    by_cases h1 : k.val < n
    · have h2 : k ≠ ⟨n, hn⟩ := fun h => by rw [h] at h1; exact absurd h1 (lt_irrefl _)
      rw [if_pos (by omega), if_pos h1, if_neg h2, add_zero]
    · by_cases h3 : k.val = n
      · have h2 : k = ⟨n, hn⟩ := Fin.ext h3
        rw [if_pos (by omega), if_neg h1, if_pos h2, zero_add]
      · have h2 : k ≠ ⟨n, hn⟩ := fun h => h3 (by rw [h])
        rw [if_neg (by omega), if_neg h1, if_neg h2, add_zero]
  rw [Finset.sum_congr rfl fun k _ => h k, Finset.sum_add_distrib]
  congr 1
  rw [Finset.sum_ite_eq' Finset.univ (⟨n, hn⟩ : Fin a) g, if_pos (Finset.mem_univ _)]

/-- After all `a` blocks the running total is the whole sum. -/
theorem blockPartial_all (a : ℕ) (g : Fin a → M) : blockPartial a g a = ∑ k : Fin a, g k := by
  unfold blockPartial
  exact Finset.sum_congr rfl fun k _ => if_pos k.isLt

end Cert.BlockSum
-- ==== Proof.BodyIdeal.lean ====
/-
  The output block on the extended reals is the specification's block.

  Trip k adds to the accumulator, at (r, e), the sum over the 1024 hidden units 1024 k … 1024 k + 1023 of
  hidden(r, f) · w2(e, f): the chunk's rows of the first weight matrix, its columns of the first bias row and
  of the second weight matrix are rows / columns 1024 k + l of the whole arrays.  So the accumulator after n
  trips is the running total of the first n blocks of the sum over all 4096 hidden units, from zero; after the
  four trips it is the whole sum — a sum over 4 · 1024 indices taken block by block —, and the last step adds
  the second bias.
-/
import proofs.«177052_j65481071399837_2_alg».proof.Proof.Gen.KernelIdeal.Frame
import Idealize.ShloMosaic.Lib.Pipeline.Value
import Idealize.ShloMosaic.Lib.Tactic
import proofs.«177052_j65481071399837_2_alg».proof.Proof.Body
import proofs.«177052_j65481071399837_2_alg».proof.Proof.Payload
import proofs.«177052_j65481071399837_2_alg».proof.Proof.Spec
import proofs.«177052_j65481071399837_2_alg».proof.Proof.LibBlockSum

set_option maxRecDepth 16384

noncomputable section

open Idealize.ShloMosaic Idealize.ShloMosaic.TcCoe Idealize.ShloMosaic.Tactic Idealize.SL.Sem

namespace Cert.Mlp.Body

open Cert.KernelIdeal Cert.KernelIdeal.Gen

open Idealize.ShloMosaic.ValueIdx

theorem trips_eq : k0_t1_loop.trips = 4 := by decide +kernel

/-- Row l of chunk k of the first weight matrix is its row 1024 k + l. -/
theorem w1c_apply (x2 : Vec Ideal S4096x8 .bf16) (k : Fin k0_t1_loop.trips) (l : Fin 1024) (q : Fin 8) (f : Fin 4096)
    (hf : f.val = 1024 * k.val + l.val) : w1c x2 k (ix2 l q) = x2 (ix2 f q) := by
  unfold w1c
  show x2 ((Rect.unit (s := S4096x8) (k0_off1 k) S1024x8.size (k0_off1_inb k)).idx (ix2 l q)) = _
  refine congrArg x2 (funext fun a => Fin.ext ?_)
  match a with
  | ⟨0, _⟩ => show k0_off1 k 0 + 1 * l.val = f.val; rw [k0_off1_eq]; show 1024 * k.val + 1 * l.val = f.val; omega
  | ⟨1, _⟩ => show k0_off1 k 1 + 1 * q.val = q.val; rw [k0_off1_eq]; show 0 + 1 * q.val = q.val; omega

/-- Entry l of chunk k of the first bias row is its entry 1024 k + l. -/
theorem b1c_apply (x3 : Vec Ideal S1x4096 .f32) (k : Fin k0_t1_loop.trips) (l : Fin 1024) (f : Fin 4096)
    (hf : f.val = 1024 * k.val + l.val) : b1c x3 k (ix2 (0 : Fin 1) l) = x3 (ix2 (0 : Fin 1) f) := by
  unfold b1c
  show x3 ((Rect.unit (s := S1x4096) (k0_off2 k) S1x1024.size (k0_off2_inb k)).idx (ix2 (0 : Fin 1) l)) = _
  refine congrArg x3 (funext fun a => Fin.ext ?_)
  match a with
  | ⟨0, _⟩ => show k0_off2 k 0 + 1 * 0 = 0; rw [k0_off2_eq]; rfl
  | ⟨1, _⟩ => show k0_off2 k 1 + 1 * l.val = f.val; rw [k0_off2_eq]; show 1024 * k.val + 1 * l.val = f.val; omega

/-- Column l of chunk k of the second weight matrix is its column 1024 k + l. -/
theorem w2c_apply (x4 : Vec Ideal S1024x4096 .bf16) (k : Fin k0_t1_loop.trips) (e l : Fin 1024) (f : Fin 4096)
    (hf : f.val = 1024 * k.val + l.val) : w2c x4 k (ix2 e l) = x4 (ix2 e f) := by
  unfold w2c
  show x4 ((Rect.unit (s := S1024x4096) (k0_off3 k) S1024x1024.size (k0_off3_inb k)).idx (ix2 e l)) = _
  refine congrArg x4 (funext fun a => Fin.ext ?_)
  match a with
  | ⟨0, _⟩ => show k0_off3 k 0 + 1 * e.val = e.val; rw [k0_off3_eq]; show 0 + 1 * e.val = e.val; omega
  | ⟨1, _⟩ => show k0_off3 k 1 + 1 * l.val = f.val; rw [k0_off3_eq]; show 1024 * k.val + 1 * l.val = f.val; omega

/-- Hidden unit f's contribution to output (r, e). -/
def term (x0 : Vec Ideal S1024x8 .f32) (x1 : Vec Ideal S1x8 .f32) (x2 : Vec Ideal S4096x8 .bf16) (x3 : Vec Ideal S1x4096 .f32)
    (x4 : Vec Ideal S1024x4096 .bf16) (r e : Fin 1024) (f : Fin 4096) : EReal :=
  max ((∑ k : Fin 8, (Ideal.cos (x0 (ix2 r k)) * x1 (ix2 (0 : Fin 1) k)) * x2 (ix2 f k)) + x3 (ix2 (0 : Fin 1) f)) 0
    * x4 (ix2 e f)

/-- The accumulator after n trips is the running total of the first n blocks of 1024 hidden units. -/
theorem acc_partial (x0 : Vec Ideal S1024x8 .f32) (x1 : Vec Ideal S1x8 .f32) (x2 : Vec Ideal S4096x8 .bf16) (x3 : Vec Ideal S1x4096 .f32)
    (x4 : Vec Ideal S1024x4096 .bf16) (r e : Fin 1024) :
    ∀ n : ℕ, n ≤ 4 → accN x0 x1 x2 x3 x4 n (ix2 r e)
      = Cert.BlockSum.blockPartial 4 (fun c : Fin 4 => ∑ l : Fin 1024, term x0 x1 x2 x3 x4 r e (Cert.BlockSum.blockIdx 4 1024 c l)) n
  | 0, _ => by
    rw [Cert.BlockSum.blockPartial_zero]
    exact Cert.Mlp.Pay.pay1_apply _
  | n + 1, hn => by
    have ih := acc_partial x0 x1 x2 x3 x4 r e n (Nat.le_of_succ_le hn)
    have hlt : n < k0_t1_loop.trips := by rw [trips_eq]; omega
    rw [show n + 1 = (⟨n, hlt⟩ : Fin k0_t1_loop.trips).val + 1 from rfl, accN_succ, Cert.Mlp.Pay.pay2_apply, ih,
      Cert.BlockSum.blockPartial_succ 4 _ n (by omega)]
    refine congrArg (_ + ·) (Finset.sum_congr rfl fun l _ => ?_)
    unfold term
    rw [w2c_apply x4 ⟨n, hlt⟩ e l (Cert.BlockSum.blockIdx 4 1024 ⟨n, by omega⟩ l) rfl,
      b1c_apply x3 ⟨n, hlt⟩ l (Cert.BlockSum.blockIdx 4 1024 ⟨n, by omega⟩ l) rfl]
    refine congrArg (· * _) (congrArg (max · 0) (congrArg (· + _) (Finset.sum_congr rfl fun q _ => ?_)))
    rw [w1c_apply x2 ⟨n, hlt⟩ l q (Cert.BlockSum.blockIdx 4 1024 ⟨n, by omega⟩ l) rfl]

/-- The body's result is the specification's block. -/
theorem pay_block (x0 : Vec Ideal S1024x8 .f32) (x1 : Vec Ideal S1x8 .f32) (x2 : Vec Ideal S4096x8 .bf16) (x3 : Vec Ideal S1x4096 .f32)
    (x4 : Vec Ideal S1024x4096 .bf16) (x5 : Vec Ideal S1x1024 .f32) :
    k0_pay3 (F := Ideal) (accN x0 x1 x2 x3 x4 k0_t1_loop.trips) x5 = Cert.Mlp.blockOut x0 x1 x2 x3 x4 x5 := by
  funext y
  obtain ⟨r, e, rfl⟩ : ∃ (r : Fin 1024) (e : Fin 1024), y = ix2 r e := ⟨y 0, y 1, eq_ix2 y⟩
  rw [Cert.Mlp.Pay.pay3_apply, Cert.Mlp.blockOut_ix2, trips_eq, acc_partial x0 x1 x2 x3 x4 r e 4 le_rfl,
    Cert.BlockSum.blockPartial_all, ← Cert.BlockSum.sum_blocks 4 1024 (term x0 x1 x2 x3 x4 r e)]
  rfl

/-- What the output's staging buffer holds after the body at a grid point: the specification's block of the
    point's input blocks. -/
theorem outsAt0_eq (m : (ℓ : Loc nD τ sig) → Buf (Elt Ideal) ℓ) (c : Dev nD) (t : Fin cfg0.N) :
    outsAt0 (F := Ideal) m c t
      = Cert.Mlp.blockOut (iblk m c 0 t) (iblk m c 1 t) (iblk m c 2 t) (iblk m c 3 t) (iblk m c 4 t) (iblk m c 5 t) :=
  (outsAt0_eq_pay m c t).trans (pay_block _ _ _ _ _ _)

end Cert.Mlp.Body

end
-- ==== Proof.Blocks.lean ====
/-
  The kernel's input blocks, read at an index as entries of the argument arrays.

  Before the grid runs, the program slices x to its first eight columns and flattens the tokens
  (row R = b * 4096 + s), takes cos θ, and adds a leading unit axis to cos θ, b1 and b2; the two weight
  matrices pass through a change of float format, which is the identity on the extended reals.  Grid
  point t reads rows 1024 t .. 1024 t + 1023 of the flattened x and the whole of the other five arrays.
-/
import proofs.«177052_j65481071399837_2_alg».proof.Proof.Gen.KernelIdeal.Frame
import proofs.«177052_j65481071399837_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.ValueIdx

namespace Cert.Mlp.Launch

open Cert.KernelIdeal Cert.KernelIdeal.Gen

variable (m : (ℓ : Loc nD τ sig) → Buf (Elt Ideal) ℓ)

/-- The flattened slice of x at row R = b * 4096 + s, column k, is x(b, s, k). -/
theorem flatX_apply (c : Dev nD) (R : Fin 32768) (k : Fin 8) (b : Fin 8) (s : Fin 4096)
    (hR : R.val = b.val * 4096 + s.val) :
    (V m c main_v1 : S32768x8.Idx → EReal) (ix2 R k)
      = (m ((c.tc : Thread nD τ).loc main_arg0) : S8x4096x1024.Idx → EReal)
          (ix3 b s (⟨k.val, by have := k.isLt; omega⟩ : Fin 1024)) := by
  have e : (V m c main_v1 : S32768x8.Idx → EReal)
      = shapeCast S32768x8 (extractStridedSlice S8x4096x8 ![0, 0, 0]
          (m ((c.tc : Thread nD τ).loc main_arg0) : S8x4096x1024.Idx → EReal)
          Facts₀.slices_S8x4096x1024_S8x4096x8_0_0_0) Facts₀.shapeCasts_S8x4096x8_S32768x8 := by
    show StableHlo.after hostOps0 (fun b => m (c, b)) (Proc.devRef .tc main_v1) = _
    after_results
    rfl
  rw [e]
  refine (shapeCast_apply _ _ (ix2 R k) (ix3 b s k) ?_).trans ?_
  · rw [Shape.rowMajor_val_three, Shape.rowMajor_val_two]
    show (b.val * 4096 + s.val) * 8 + k.val = R.val * 8 + k.val
    omega
  · refine extractStridedSlice_apply _ _ _ (ix3 b s k) _ (fun a => ?_)
    match a with
    | ⟨0, _⟩ => exact (Nat.zero_add _).symm
    | ⟨1, _⟩ => exact (Nat.zero_add _).symm
    | ⟨2, _⟩ => exact (Nat.zero_add _).symm

/-- The row of cosines [1, 8] at column k is cos θ(k). -/
theorem cosRow_apply (c : Dev nD) (u : Fin 1) (k : Fin 8) :
    (V m c main_v3 : S1x8.Idx → EReal) (ix2 u k)
      = Ideal.cos ((m ((c.tc : Thread nD τ).loc main_arg1) : S8.Idx → EReal) (ix1 k)) := by
  have e : (V m c main_v3 : S1x8.Idx → EReal)
      = shapeCast (α := EReal) S1x8 (Host.cos (F := Ideal) (s := S8) (φ := .f32) (m ((c.tc : Thread nD τ).loc main_arg1)))
          Facts₀.shapeCasts_S8_S1x8 := by
    show StableHlo.after hostOps0 (fun b => m (c, b)) (Proc.devRef .tc main_v3) = _
    after_results
    rfl
  rw [e]
  exact shapeCast_a_1a_apply _ _ u k

/-- The first weight matrix reaches the grid unchanged. -/
theorem w1_apply (c : Dev nD) (f : Fin 4096) (k : Fin 8) :
    (V m c main_v4 : S4096x8.Idx → EReal) (ix2 f k)
      = (m ((c.tc : Thread nD τ).loc main_arg2) : S4096x8.Idx → EReal) (ix2 f k) := by
  have e : (V m c main_v4 : S4096x8.Idx → EReal)
      = truncf (F := Ideal) (s := S4096x8) (φ := .f32) .bf16 (m ((c.tc : Thread nD τ).loc main_arg2)) Facts₀.bitsLt_bf16_f32 := by
    show StableHlo.after hostOps0 (fun b => m (c, b)) (Proc.devRef .tc main_v4) = _
    after_results
  rw [e]
  rfl

/-- The second weight matrix reaches the grid unchanged. -/
theorem w2_apply (c : Dev nD) (e' : Fin 1024) (f : Fin 4096) :
    (V m c main_v5 : S1024x4096.Idx → EReal) (ix2 e' f)
      = (m ((c.tc : Thread nD τ).loc main_arg4) : S1024x4096.Idx → EReal) (ix2 e' f) := by
  have e : (V m c main_v5 : S1024x4096.Idx → EReal)
      = truncf (F := Ideal) (s := S1024x4096) (φ := .f32) .bf16 (m ((c.tc : Thread nD τ).loc main_arg4)) Facts₀.bitsLt_bf16_f32 := by
    show StableHlo.after hostOps0 (fun b => m (c, b)) (Proc.devRef .tc main_v5) = _
    after_results
  rw [e]
  rfl

/-- The first bias as a row [1, 4096]. -/
theorem b1Row_apply (c : Dev nD) (u : Fin 1) (f : Fin 4096) :
    (V m c main_v6 : S1x4096.Idx → EReal) (ix2 u f)
      = (m ((c.tc : Thread nD τ).loc main_arg3) : S4096.Idx → EReal) (ix1 f) := by
  have e : (V m c main_v6 : S1x4096.Idx → EReal)
      = shapeCast S1x4096 (m ((c.tc : Thread nD τ).loc main_arg3) : S4096.Idx → EReal)
          Facts₀.shapeCasts_S4096_S1x4096 := by
    show StableHlo.after hostOps0 (fun b => m (c, b)) (Proc.devRef .tc main_v6) = _
    after_results
    rfl
  rw [e]
  exact shapeCast_a_1a_apply _ _ u f

/-- The second bias as a row [1, 1024]. -/
theorem b2Row_apply (c : Dev nD) (u : Fin 1) (e' : Fin 1024) :
    (V m c main_v7 : S1x1024.Idx → EReal) (ix2 u e')
      = (m ((c.tc : Thread nD τ).loc main_arg5) : S1024.Idx → EReal) (ix1 e') := by
  have e : (V m c main_v7 : S1x1024.Idx → EReal)
      = shapeCast S1x1024 (m ((c.tc : Thread nD τ).loc main_arg5) : S1024.Idx → EReal)
          Facts₀.shapeCasts_S1024_S1x1024 := by
    show StableHlo.after hostOps0 (fun b => m (c, b)) (Proc.devRef .tc main_v7) = _
    after_results
    rfl
  rw [e]
  exact shapeCast_a_1a_apply _ _ u e'

/-! ## The blocks -/

/-- Where each window's block sits at grid point t: the flattened x moves one block of rows per point, the other
    five windows stay at the origin. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row r of the block of x at point t is token (b, s) with 1024 t + r = 4096 b + s. -/
theorem xBlock_apply (c : Dev nD) (t : Fin cfg0.N) (r : Fin 1024) (k : Fin 8) (b : Fin 8) (s : Fin 4096)
    (h : 1024 * t.val + r.val = b.val * 4096 + s.val) :
    (iblk m c 0 t : Vec Ideal S1024x8 .f32) (ix2 r k)
      = (m ((c.tc : Thread nD τ).loc main_arg0) : S8x4096x1024.Idx → EReal)
          (ix3 b s (⟨k.val, by have := k.isLt; omega⟩ : Fin 1024)) := by
  obtain ⟨e0, e1, -⟩ := blockIndex t
  have hR : 1024 * t.val + r.val < 32768 := by have := b.isLt; have := s.isLt; omega
  unfold iblk
  rw [View.read_apply]
  show (V m c main_v1 : S32768x8.Idx → EReal) _ = _
  refine Eq.trans (congrArg (V m c main_v1 : S32768x8.Idx → EReal) ?_)
    (flatX_apply m c ⟨1024 * t.val + r.val, hR⟩ k b s h)
  funext a
  apply Fin.ext
  match a with
  | ⟨0, _⟩ => show win0_0.index t (0 : Fin 2) * 1024 + 1 * r.val = 1024 * t.val + r.val; rw [e0]; omega
  | ⟨1, _⟩ => show win0_0.index t (1 : Fin 2) * 8 + 1 * k.val = k.val; rw [e1]; omega

/-- The block of cosines at any point is the whole row. -/
theorem cosBlock_apply (c : Dev nD) (t : Fin cfg0.N) (u : Fin 1) (k : Fin 8) :
    (iblk m c 1 t : Vec Ideal S1x8 .f32) (ix2 u k)
      = Ideal.cos ((m ((c.tc : Thread nD τ).loc main_arg1) : S8.Idx → EReal) (ix1 k)) := by
  obtain ⟨-, -, e0, e1, -⟩ := blockIndex t
  unfold iblk
  rw [View.read_apply]
  show (V m c main_v3 : S1x8.Idx → EReal) _ = _
  refine Eq.trans (congrArg (V m c main_v3 : S1x8.Idx → EReal) ?_) (cosRow_apply m c u k)
  funext a
  apply Fin.ext
  match a with
  | ⟨0, _⟩ => show win0_1.index t (0 : Fin 2) * 1 + 1 * u.val = u.val; rw [e0]; omega
  | ⟨1, _⟩ => show win0_1.index t (1 : Fin 2) * 8 + 1 * k.val = k.val; rw [e1]; omega

/-- The block of the first weight matrix at any point is the whole matrix. -/
theorem w1Block_apply (c : Dev nD) (t : Fin cfg0.N) (f : Fin 4096) (k : Fin 8) :
    (iblk m c 2 t : Vec Ideal S4096x8 .bf16) (ix2 f k)
      = (m ((c.tc : Thread nD τ).loc main_arg2) : S4096x8.Idx → EReal) (ix2 f k) := by
  obtain ⟨-, -, -, -, e0, e1, -⟩ := blockIndex t
  unfold iblk
  rw [View.read_apply]
  show (V m c main_v4 : S4096x8.Idx → EReal) _ = _
  refine Eq.trans (congrArg (V m c main_v4 : S4096x8.Idx → EReal) ?_) (w1_apply m c f k)
  funext a
  apply Fin.ext
  match a with
  | ⟨0, _⟩ => show win0_2.index t (0 : Fin 2) * 4096 + 1 * f.val = f.val; rw [e0]; omega
  | ⟨1, _⟩ => show win0_2.index t (1 : Fin 2) * 8 + 1 * k.val = k.val; rw [e1]; omega

/-- The block of the first bias at any point is the whole row. -/
theorem b1Block_apply (c : Dev nD) (t : Fin cfg0.N) (u : Fin 1) (f : Fin 4096) :
    (iblk m c 3 t : Vec Ideal S1x4096 .f32) (ix2 u f)
      = (m ((c.tc : Thread nD τ).loc main_arg3) : S4096.Idx → EReal) (ix1 f) := by
  obtain ⟨-, -, -, -, -, -, e0, e1, -⟩ := blockIndex t
  unfold iblk
  rw [View.read_apply]
  show (V m c main_v6 : S1x4096.Idx → EReal) _ = _
  refine Eq.trans (congrArg (V m c main_v6 : S1x4096.Idx → EReal) ?_) (b1Row_apply m c u f)
  funext a
  apply Fin.ext
  match a with
  | ⟨0, _⟩ => show win0_3.index t (0 : Fin 2) * 1 + 1 * u.val = u.val; rw [e0]; omega
  | ⟨1, _⟩ => show win0_3.index t (1 : Fin 2) * 4096 + 1 * f.val = f.val; rw [e1]; omega

/-- The block of the second weight matrix at any point is the whole matrix. -/
theorem w2Block_apply (c : Dev nD) (t : Fin cfg0.N) (e' : Fin 1024) (f : Fin 4096) :
    (iblk m c 4 t : Vec Ideal S1024x4096 .bf16) (ix2 e' f)
      = (m ((c.tc : Thread nD τ).loc main_arg4) : S1024x4096.Idx → EReal) (ix2 e' f) := by
  obtain ⟨-, -, -, -, -, -, -, -, e0, e1, -⟩ := blockIndex t
  unfold iblk
  rw [View.read_apply]
  show (V m c main_v5 : S1024x4096.Idx → EReal) _ = _
  refine Eq.trans (congrArg (V m c main_v5 : S1024x4096.Idx → EReal) ?_) (w2_apply m c e' f)
  funext a
  apply Fin.ext
  match a with
  | ⟨0, _⟩ => show win0_4.index t (0 : Fin 2) * 1024 + 1 * e'.val = e'.val; rw [e0]; omega
  | ⟨1, _⟩ => show win0_4.index t (1 : Fin 2) * 4096 + 1 * f.val = f.val; rw [e1]; omega

/-- The block of the second bias at any point is the whole row. -/
theorem b2Block_apply (c : Dev nD) (t : Fin cfg0.N) (u : Fin 1) (e' : Fin 1024) :
    (iblk m c 5 t : Vec Ideal S1x1024 .f32) (ix2 u e')
      = (m ((c.tc : Thread nD τ).loc main_arg5) : S1024.Idx → EReal) (ix1 e') := by
  obtain ⟨-, -, -, -, -, -, -, -, -, -, e0, e1⟩ := blockIndex t
  unfold iblk
  rw [View.read_apply]
  show (V m c main_v7 : S1x1024.Idx → EReal) _ = _
  refine Eq.trans (congrArg (V m c main_v7 : S1x1024.Idx → EReal) ?_) (b2Row_apply m c u e')
  funext a
  apply Fin.ext
  match a with
  | ⟨0, _⟩ => show win0_5.index t (0 : Fin 2) * 1 + 1 * u.val = u.val; rw [e0]; omega
  | ⟨1, _⟩ => show win0_5.index t (1 : Fin 2) * 1024 + 1 * e'.val = e'.val; rw [e1]; omega

/-! ## One row of a block is one token of the whole function -/

/-- The block function at row r is the whole function at token (b, s), given that the block's operands are the
    argument arrays' entries at that token. -/
theorem blockAt_eq_out
    (x0 : (⟨2, ![1024, 8]⟩ : Shape).Idx → EReal) (x1 : (⟨2, ![1, 8]⟩ : Shape).Idx → EReal)
    (x2 : (⟨2, ![4096, 8]⟩ : Shape).Idx → EReal) (x3 : (⟨2, ![1, 4096]⟩ : Shape).Idx → EReal)
    (x4 : (⟨2, ![1024, 4096]⟩ : Shape).Idx → EReal) (x5 : (⟨2, ![1, 1024]⟩ : Shape).Idx → EReal)
    (X : (⟨3, ![8, 4096, 1024]⟩ : Shape).Idx → EReal) (θ : (⟨1, ![8]⟩ : Shape).Idx → EReal)
    (w1 : (⟨2, ![4096, 8]⟩ : Shape).Idx → EReal) (b1 : (⟨1, ![4096]⟩ : Shape).Idx → EReal)
    (w2 : (⟨2, ![1024, 4096]⟩ : Shape).Idx → EReal) (b2 : (⟨1, ![1024]⟩ : Shape).Idx → EReal)
    (r : Fin 1024) (e : Fin 1024) (b : Fin 8) (s : Fin 4096)
    (h0 : ∀ k : Fin 8, x0 (ix2 r k) = X (ix3 b s (⟨k.val, by have := k.isLt; omega⟩ : Fin 1024)))
    (h1 : ∀ k : Fin 8, x1 (ix2 (0 : Fin 1) k) = Ideal.cos (θ (ix1 k)))
    (h2 : ∀ (f : Fin 4096) (k : Fin 8), x2 (ix2 f k) = w1 (ix2 f k))
    (h3 : ∀ f : Fin 4096, x3 (ix2 (0 : Fin 1) f) = b1 (ix1 f))
    (h4 : ∀ f : Fin 4096, x4 (ix2 e f) = w2 (ix2 e f))
    (h5 : x5 (ix2 (0 : Fin 1) e) = b2 (ix1 e)) :
    Cert.Mlp.blockAt x0 x1 x2 x3 x4 x5 r e = Cert.Mlp.out X θ w1 b1 w2 b2 b s e := by
  unfold Cert.Mlp.blockAt Cert.Mlp.out Cert.Mlp.hidden Cert.Mlp.feat
  rw [h5]
  congr 1
  refine Finset.sum_congr rfl fun f _ => ?_
  rw [h4 f, h3 f]
  have hs : (∑ k : Fin 8, (Ideal.cos (x0 (ix2 r k)) * x1 (ix2 (0 : Fin 1) k)) * x2 (ix2 f k))
      = ∑ k : Fin 8, (Ideal.cos (X (ix3 b s (⟨k.val, by have := k.isLt; omega⟩ : Fin 1024))) * Ideal.cos (θ (ix1 k)))
          * w1 (ix2 f k) :=
    Finset.sum_congr rfl fun k _ => by rw [h0 k, h1 k, h2 f k]
  rw [hs]

/-- Row r of the block the body leaves at point t is token (b, s) of the whole function, 1024 t + r = 4096 b + s. -/
theorem blockOut_apply (c : Dev nD) (t : Fin cfg0.N) (r : Fin 1024) (e : Fin 1024) (b : Fin 8) (s : Fin 4096)
    (h : 1024 * t.val + r.val = b.val * 4096 + s.val) :
    Cert.Mlp.blockOut (iblk m c 0 t) (iblk m c 1 t) (iblk m c 2 t) (iblk m c 3 t) (iblk m c 4 t) (iblk m c 5 t) (ix2 r e)
      = Cert.Mlp.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) b s e :=
  (Cert.Mlp.blockOut_ix2 (iblk m c 0 t) (iblk m c 1 t) (iblk m c 2 t) (iblk m c 3 t) (iblk m c 4 t) (iblk m c 5 t) r e).trans
    (blockAt_eq_out (iblk m c 0 t) (iblk m c 1 t) (iblk m c 2 t) (iblk m c 3 t) (iblk m c 4 t) (iblk m c 5 t)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) r e b s
      (fun k => xBlock_apply m c t r k b s h) (fun k => cosBlock_apply m c t 0 k)
      (fun f k => w1Block_apply m c t f k) (fun f => b1Block_apply m c t 0 f)
      (fun f => w2Block_apply m c t e f) (b2Block_apply m c t 0 e))

end Cert.Mlp.Launch

end
-- ==== Proof.Launch.lean ====
/-
  From what the body leaves at each grid point to the program's result array.

  Grid point t writes rows 1024 t .. 1024 t + 1023 of a flat array [32768, 1024]; its row R is token
  (R / 4096, R % 4096) of the function out.  The thirty-two blocks tile the flat array, so after the grid it
  holds that function everywhere; the one operation after the grid reshapes it, row-major, to [8, 4096, 1024],
  where entry (b, s, e) is row b * 4096 + s, column e.
-/
import proofs.«177052_j65481071399837_2_alg».proof.Proof.Blocks

noncomputable section

open Idealize.ShloMosaic Idealize.ShloMosaic.TcCoe Idealize.SL.Sem
open Idealize.ShloMosaic.ValueIdx

namespace Cert.Mlp.Launch

open Cert.KernelIdeal Cert.KernelIdeal.Gen

/-- The flat result [32768, 1024]: row R, column e is the output e of token (R / 4096, R % 4096). -/
def flatG (X : (⟨3, ![8, 4096, 1024]⟩ : Shape).Idx → EReal) (θ : (⟨1, ![8]⟩ : Shape).Idx → EReal)
    (w1 : (⟨2, ![4096, 8]⟩ : Shape).Idx → EReal) (b1 : (⟨1, ![4096]⟩ : Shape).Idx → EReal)
    (w2 : (⟨2, ![1024, 4096]⟩ : Shape).Idx → EReal) (b2 : (⟨1, ![1024]⟩ : Shape).Idx → EReal) :
    (⟨2, ![32768, 1024]⟩ : Shape).Idx → EReal :=
  fun i => Cert.Mlp.out X θ w1 b1 w2 b2
    (⟨(i 0).val / 4096, by have := idx2_lt0 i; omega⟩ : Fin 8)
    (⟨(i 0).val % 4096, Nat.mod_lt _ (by decide)⟩ : Fin 4096)
    (⟨(i 1).val, idx2_lt1 i⟩ : Fin 1024)

/-- The flat result at an index whose row is 4096 b + s and whose column is e. -/
theorem flatG_apply (X : (⟨3, ![8, 4096, 1024]⟩ : Shape).Idx → EReal) (θ : (⟨1, ![8]⟩ : Shape).Idx → EReal)
    (w1 : (⟨2, ![4096, 8]⟩ : Shape).Idx → EReal) (b1 : (⟨1, ![4096]⟩ : Shape).Idx → EReal)
    (w2 : (⟨2, ![1024, 4096]⟩ : Shape).Idx → EReal) (b2 : (⟨1, ![1024]⟩ : Shape).Idx → EReal)
    (i : (⟨2, ![32768, 1024]⟩ : Shape).Idx) (b : Fin 8) (s : Fin 4096) (e : Fin 1024)
    (h0 : (i 0).val = b.val * 4096 + s.val) (h1 : (i 1).val = e.val) :
    flatG X θ w1 b1 w2 b2 i = Cert.Mlp.out X θ w1 b1 w2 b2 b s e := by
  have hb : (⟨(i 0).val / 4096, by have := idx2_lt0 i; omega⟩ : Fin 8) = b :=
    Fin.ext (by show (i 0).val / 4096 = b.val; have := s.isLt; omega)
  have hs : (⟨(i 0).val % 4096, Nat.mod_lt _ (by decide)⟩ : Fin 4096) = s :=
    Fin.ext (by show (i 0).val % 4096 = s.val; have := s.isLt; omega)
  have he : (⟨(i 1).val, idx2_lt1 i⟩ : Fin 1024) = e := Fin.ext h1
  unfold flatG
  rw [hb, hs, he]

variable (m : (ℓ : Loc nD τ sig) → Buf (Elt Ideal) ℓ)

/-- The flat result of the launch memory's argument arrays. -/
abbrev flatOf (c : Dev nD) : (⟨2, ![32768, 1024]⟩ : Shape).Idx → EReal :=
  flatG (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-- Where the output block sits at grid point t: block row t, block column 0. -/
theorem outIndex : ∀ t : Fin cfg0.N, win0_6.index t (0 : Fin 2) = t.val ∧ win0_6.index t (1 : Fin 2) = 0 :=
  (by decide +kernel : ∀ t : Fin grid0.N, _)

section Body

variable (hbody : ∀ (c : Dev nD) (t : Fin cfg0.N), outsAt0 (F := Ideal) m c t
      = Cert.Mlp.blockOut (iblk m c 0 t) (iblk m c 1 t) (iblk m c 2 t) (iblk m c 3 t) (iblk m c 4 t) (iblk m c 5 t))

include hbody in
/-- What grid point t writes back is block t of the flat result. -/
theorem flushed_eq (c : Dev nD) (t : Fin cfg0.N) :
    (dats m 0 c).flushed 6 t = ((cfg0.win 6).blk t).view.read (Elt Ideal) (flatOf m c) := by
  show (cfg0.win 6).cut (grid0.coords t) ((dats m 0 c).after 6 t) = _
  rw [after0_6, hbody c t]
  obtain ⟨e0, e1⟩ := outIndex t
  have hN : t.val < 32 := Nat.lt_of_lt_of_eq t.isLt (N_0 : cfg0.N = 32)
  funext j
  rw [View.read_apply]
  have hj0 : (j 0).val < 1024 := (j 0).isLt
  have hj1 : (j 1).val < 1024 := (j 1).isLt
  have hx : (cfg0.win 6).xinj (grid0.coords t) j = ix2 (⟨(j 0).val, hj0⟩ : Fin 1024) (⟨(j 1).val, hj1⟩ : Fin 1024) := by
    funext a
    match a with
    | ⟨0, _⟩ => rfl
    | ⟨1, _⟩ => rfl
  refine Eq.trans (congrArg (Cert.Mlp.blockOut (iblk m c 0 t) (iblk m c 1 t) (iblk m c 2 t) (iblk m c 3 t) (iblk m c 4 t) (iblk m c 5 t)) hx) ?_
  refine (blockOut_apply m c t ⟨(j 0).val, hj0⟩ ⟨(j 1).val, hj1⟩
    (⟨(1024 * t.val + (j 0).val) / 4096, by omega⟩ : Fin 8) (⟨(1024 * t.val + (j 0).val) % 4096, Nat.mod_lt _ (by decide)⟩ : Fin 4096)
    (by show 1024 * t.val + (j 0).val = (1024 * t.val + (j 0).val) / 4096 * 4096 + (1024 * t.val + (j 0).val) % 4096; omega)).trans ?_
  refine (flatG_apply _ _ _ _ _ _ _ _ _ _ ?_ ?_).symm
  · show win0_6.index t (0 : Fin 2) * 1024 + 1 * (j 0).val = (1024 * t.val + (j 0).val) / 4096 * 4096 + (1024 * t.val + (j 0).val) % 4096
    rw [e0]; omega
  · show win0_6.index t (1 : Fin 2) * 1024 + 1 * (j 1).val = (j 1).val
    rw [e1]; omega

/-- An index of the flat array is in point t's block iff each coordinate is in the block's range on its axis. -/
theorem mem_blk (t : Fin cfg0.N) (i : S32768x1024.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v8).slice (win0_6.rect t)).set ↔ _
  rw [View.set_slice_whole, Rect.mem_set_unit]
  exact Iff.rfl

/-- Row R of the flat array is written by grid point R / 1024. -/
theorem cover (i : S32768x1024.Idx) :
    ∃ t : Fin cfg0.N, (cfg0.win 6).flush t = true ∧ i ∈ ((cfg0.win 6).blk t).view.set := by
  have hi0 : (i 0).val < 32768 := idx2_lt0 i
  have hi1 : (i 1).val < 1024 := idx2_lt1 i
  have hN : cfg0.N = 32 := N_0
  have ht : (i 0).val / 1024 < cfg0.N := by rw [hN]; omega
  obtain ⟨e0, e1⟩ := outIndex ⟨(i 0).val / 1024, ht⟩
  refine ⟨⟨(i 0).val / 1024, ht⟩, flush0_6 _, ?_⟩
  rw [mem_blk]
  intro a
  match a with
  | ⟨0, _⟩ =>
    show win0_6.index ⟨(i 0).val / 1024, ht⟩ (0 : Fin 2) * 1024 ≤ (i 0).val
      ∧ (i 0).val < win0_6.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_6.index ⟨(i 0).val / 1024, ht⟩ (1 : Fin 2) * 1024 ≤ (i 1).val
      ∧ (i 1).val < win0_6.index ⟨(i 0).val / 1024, ht⟩ (1 : Fin 2) * 1024 + 1024
    rw [e1]
    omega

include hbody in
/-- After the grid the flat array holds the flat result. -/
theorem final (c : Dev nD) : (dats m 0 c).arrAt 6 cfg0.N = flatOf m c :=
  (dats m 0 c).arrAt_eq_of_cover 6 (flatOf m c) (fun t _ => flushed_eq m hbody c t) cover

include hbody in
/-- The reshape after the grid reads row b * 4096 + s of the flat result at entry (b, s, e): the whole function. -/
theorem tail_eq (c : Dev nD) :
    Pipeline.afterTail₀ cfgs (dats m) 0 (V0 m) [hostOps1] c main_v9
      = Cert.Mlp.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Pipeline.afterTail₀
  show StableHlo.after hostOps1 _ (Proc.devRef .tc main_v9) = _
  after_results
  rw [(Pipeline.withArrays_arr spec0 launch0.win.arr_inj c _ _ 6).trans (final m hbody c)]
  funext i
  obtain ⟨b, s, e, rfl⟩ : ∃ (b : Fin 8) (s : Fin 4096) (e : Fin 1024), i = ix3 b s e := ⟨i 0, i 1, i 2, eq_ix3 i⟩
  rw [Cert.Mlp.G_ix3]
  have hR : b.val * 4096 + s.val < 32768 := by have := b.isLt; have := s.isLt; omega
  refine (shapeCast_apply _ _ (ix3 b s e) (ix2 (⟨b.val * 4096 + s.val, hR⟩ : Fin 32768) e) ?_).trans ?_
  · rw [Shape.rowMajor_val_two, Shape.rowMajor_val_three]
    rfl
  · exact flatG_apply _ _ _ _ _ _ _ b s e rfl rfl

end Body

/-- The kernel program's run: the result array ends at the whole function of the argument arrays, which end unchanged. -/
theorem run (ρ : Dev nD → PrngReg)
    (hbody : ∀ (c : Dev nD) (t : Fin cfg0.N), outsAt0 (F := Ideal) m c t
      = Cert.Mlp.blockOut (iblk m c 0 t) (iblk m c 1 t) (iblk m c 2 t) (iblk m c 3 t) (iblk m c 4 t) (iblk m c 5 t)) :
    θ_run defs (onTc (τ := τ) (main (F := Ideal))) ⟨m, fun _ => 0, ρ⟩ fun r => ∀ c : Dev nD,
      r.2.mem ((c.tc : Thread nD τ).loc main_v9)
        = Cert.Mlp.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v9 (Pipeline.mem_restRefs_of main_v9 (by decide) (by decide))).trans (tail_eq m hbody c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Mlp.Launch

end
-- ==== Proof.lean ====
/-
  The five claims about the fused feature-and-MLP kernel and its reference.

  Both programs compute, for every token (b, s) and output column e,
      out(b,s,e) = ∑_f max (∑ₖ cos x(b,s,k) · cos θ(k) · w1(f,k) + b1(f)) 0 · w2(e,f) + b2(e)
  on the extended reals.  The reference does so with two whole contractions.  The kernel works on blocks of
  1024 rows of the flattened token axis; for each block it accumulates the sum over the 4096 hidden units in
  four chunks of 1024, from a zero block, and adds the second bias at the end; the result is reshaped back to
  [8, 4096, 1024].  A sum over 4 · 1024 indices taken block by block is the whole sum in any commutative
  monoid, so no finiteness of the inputs is needed; a change of float format is the identity on the extended
  reals, and the product into a zero block is the plain sum of products.
  The three frames are the generated ones (the reference's is its run with the result dropped); the
  idealization rewrote nothing, so the preservation claim is trivial.
-/
import proofs.«177052_j65481071399837_2_alg».proof.Defs
import proofs.«177052_j65481071399837_2_alg».proof.Proof.Gen.Kernel
import proofs.«177052_j65481071399837_2_alg».proof.Proof.Gen.Kernel.Frame
import proofs.«177052_j65481071399837_2_alg».proof.Proof.Gen.KernelIdeal
import proofs.«177052_j65481071399837_2_alg».proof.Proof.Gen.KernelIdeal.Frame
import proofs.«177052_j65481071399837_2_alg».proof.Proof.Gen.ReferenceIdeal
import proofs.«177052_j65481071399837_2_alg».proof.Proof.Gen.ReferenceIdeal.Run
import proofs.«177052_j65481071399837_2_alg».proof.Proof.Gen.ReferenceIdeal.Read
import proofs.«177052_j65481071399837_2_alg».proof.Proof.Gen.Pre_finite_inputs
import proofs.«177052_j65481071399837_2_alg».proof.Proof.Spec
import proofs.«177052_j65481071399837_2_alg».proof.Proof.RefSpec
import proofs.«177052_j65481071399837_2_alg».proof.Proof.BodyIdeal
import proofs.«177052_j65481071399837_2_alg».proof.Proof.Launch
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the specification `G` of the argument arrays, which agree. -/
theorem algebraic : Cert.algebraic_KernelIdeal_ReferenceIdeal := by
  intro m ρ m' ρ' _ hagree
  refine ⟨fun c => Cert.Mlp.G (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5)),
    Cert.Mlp.Launch.run m ρ (Cert.Mlp.Body.outsAt0_eq m), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.Mlp.Ref.ref_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
